-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x9 : Shape := ⟨3, ![8192, 128, 9]⟩
abbrev S8192x256 : Shape := ⟨2, ![8192, 256]⟩
abbrev S8192 : Shape := ⟨1, ![8192]⟩
abbrev S_ : Shape := ⟨0, ![]⟩

class Facts : Prop where
  bcast_S_S8192x128x9 : S_.BroadcastsInDim S8192x128x9 (![] : Fin 0 → Fin S8192x128x9.rank)
  reducesTo_S8192x128x9_S_d0_1_2 : S8192x128x9.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x128x9 .f32) (main_arg1 : FVec F S8192x128x9 .f32) (main_arg2 : FVec F S8192x256 .f32) (main_arg3 : IVec S8192 32) : IVec S_ 1 :=
  let main_v0 : FVec F S8192x128x9 .f32 := Host.absf main_arg0
  let main_cst : FVec F S_ .f32 := constant S_ .f32 0x7F800000#32
  let main_v1 : FVec F S8192x128x9 .f32 := broadcastInDim S8192x128x9 ![] bcast_S_S8192x128x9 main_cst
  let main_v2 : IVec S8192x128x9 1 := cmpf .olt main_v0 main_v1
  let main_c : IVec S_ 1 := constantI S_ 1 1#1
  let main_v3 : IVec S_ 1 := (fun x v => Host.reduce IntOp.andi x v reducesTo_S8192x128x9_S_d0_1_2 h_S_) main_v2 main_c
  let main_v4 : FVec F S8192x128x9 .f32 := Host.absf main_arg1
  let main_cst_0 : FVec F S_ .f32 := constant S_ .f32 0x7F800000#32
  let main_v5 : FVec F S8192x128x9 .f32 := broadcastInDim S8192x128x9 ![] bcast_S_S8192x128x9 main_cst_0
  let main_v6 : IVec S8192x128x9 1 := cmpf .olt main_v4 main_v5
  let main_c_1 : IVec S_ 1 := constantI S_ 1 1#1
  let main_v7 : IVec S_ 1 := (fun x v => Host.reduce IntOp.andi x v reducesTo_S8192x128x9_S_d0_1_2 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x128x9 : Shape := ⟨3, ![8192, 128, 9]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S1 : Shape := ⟨1, ![1]⟩
abbrev S_ : Shape := ⟨0, ![]⟩

abbrev nBuf : Space → Nat
  | .hbm => 19
  | .vmem => 7
  | .smem => 0
  | _ => 0

abbrev bufTy : (tb : Table) → Fin (tcTables nBuf tb) → BufTy
  | .hbm, ⟨0, _⟩ => ⟨S8192x128x9, .f32⟩
  | .hbm, ⟨1, _⟩ => ⟨S8192x128x9, .f32⟩
  | .hbm, ⟨2, _⟩ => ⟨S8192x256, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8192x256, .f32⟩
  | .local _ .vmem, ⟨1, _⟩ => ⟨S8192x1, .i32⟩
  | .local _ .vmem, ⟨2, _⟩ => ⟨S1x8192, .i32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S8192x128x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v11 : Index := Scalar.indexCast v8
  let c0_3 : Index := 0#32
  ![v11.toNat, 0]
def k0_off3 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v32 : Index := Scalar.indexCast v6
  let c0_8 : Index := 0#32
  ![v32.toNat, 0]
def k0_off4 (i : grid0.Coords) : Fin 2 → Nat :=
  let c0_9 : Index := 0#32
  let arg1 : BitVec 32 := BitVec.ofNat 32 (i 1).val
  let c512_i32_2 : BitVec 32 := 512#32
  let v7 : BitVec 32 := Scalar.muli arg1 c512_i32_2
  let v8 : BitVec 32 := v7
  let v35 : Index := Scalar.indexCast v8
  ![0, v35.toNat]
def k0_cond2 (i : grid0.Coords) : BitVec 1 :=
  let arg0 : BitVec 32 := BitVec.ofNat 32 (i 0).val
  let c15_i32 : BitVec 32 := 15#32
  let v69 : BitVec 1 := Scalar.cmpi .eq arg0 c15_i32
  let arg1 : BitVec 32 := BitVec.ofNat 32 (i 1).val
  let c15_i32_25 : BitVec 32 := 15#32
  let v70 : BitVec 1 := Scalar.cmpi .eq arg1 c15_i32_25
  let v71 : BitVec 1 := Scalar.andi v69 v70
  let v72 : BitVec 32 := Scalar.extui v71
  let c0_i32_26 : BitVec 32 := 0#32
  let v73 : BitVec 1 := Scalar.cmpi .ne v72 c0_i32_26
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x256 : 0 < S512x256.numel
  reduces_S512x256_S512 : S512x256.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x256_p1_0_S256x512 : S512x256.Transposes [1, 0] S256x512
  broadcasts_S512x1_S512x512 : S512x1.Broadcasts S512x512
  broadcasts_S1x512_S512x512 : S1x512.Broadcasts S512x512
  h_S512x1 : 0 < S512x1.numel
  shapeCasts_S512x1_S512x1 : S512x1.ShapeCasts S512x1
  h_S1x512 : 0 < S1x512.numel
  shapeCasts_S1x512_S1x512 : S1x512.ShapeCasts S1x512
  natLt_1_32 : 1 < 32
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x256_S256x512_S512x512_1_0_0_1_n_n_wf : DotDims.WF S512x256 S256x512 S512x512 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x256.size a ≤ S8192x256.size a
  k0_off2_inb : ∀ i : grid0.Coords, ∀ a, (k0_off2 i) a + S512x256.size a ≤ S8192x256.size a
  k0_off3_inb : ∀ i : grid0.Coords, ∀ a, (k0_off3 i) a + S512x1.size a ≤ S8192x1.size a
  k0_off4_inb : ∀ i : grid0.Coords, ∀ a, (k0_off4 i) a + S1x512.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8192x1.size a
  hwx0_1 : ∀ i : grid0.Coords, EltTy.bits .i32 = 32 ∨ (Rect.block (s := S8192x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg2) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128x9 : Shape := ⟨3, ![8192, 128, 9]⟩
abbrev S8192x256 : Shape := ⟨2, ![8192, 256]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x128x9, .f32⟩
  | .hbm, ⟨1, _⟩ => ⟨S8192x128x9, .f32⟩
  | .hbm, ⟨2, _⟩ => ⟨S8192x256, .f32⟩
  | .hbm, ⟨3, _⟩ => ⟨S8192, .i32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x128x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Pieces.lean ====
/-
  What each control case of the kernel body leaves behind, as values.

  At grid point (a, b) the body reads four slabs out of the whole staged arrays: rows 512a .. 512a+511 and rows
  512b .. 512b+511 of the samples, and the matching 512 labels as a column and as a row. From them it forms the tile of
  scaled distances and the tile of the equal-label mask, and adds the tile's two sums into the two accumulators.
  At the first point the accumulators are first set to zero; at the last point they are also copied to the outputs.
  Each case's stores are read back here as one term over those tiles and the accumulator's previous contents.
-/
import proofs.«157157_j61418032333461_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 512 sample rows of the point's row tile. -/
def slabA (i : grid0.Coords) (x0 : Vec F S8192x256 .f32) : Vec F S512x256 .f32 :=
  View.ld x0 (Rect.unit (s := S8192x256) (k0_off1 i) S512x256.size (k0_off1_inb i))
/-- The 512 sample rows of the point's column tile. -/
def slabB (i : grid0.Coords) (x0 : Vec F S8192x256 .f32) : Vec F S512x256 .f32 :=
  View.ld x0 (Rect.unit (s := S8192x256) (k0_off2 i) S512x256.size (k0_off2_inb i))
/-- The labels of the row tile, as a column. -/
def labA (i : grid0.Coords) (x1 : Vec F S8192x1 .i32) : Vec F S512x1 .i32 :=
  View.ld x1 (Rect.unit (s := S8192x1) (k0_off3 i) S512x1.size (k0_off3_inb i))
/-- The labels of the column tile, as a row. -/
def labB (i : grid0.Coords) (x2 : Vec F S1x8192 .i32) : Vec F S1x512 .i32 :=
  View.ld x2 (Rect.unit (s := S1x8192) (k0_off4 i) S1x512.size (k0_off4_inb i))

/-- The tile of scaled squared distances at the point. -/
def distTile (i : grid0.Coords) (x0 : Vec F S8192x256 .f32) : FVec F S512x512 .f32 := k0_pay5 (slabA i x0) (slabB i x0)
/-- The tile of the equal-label mask at the point. -/
def maskTile (i : grid0.Coords) (x1 : Vec F S8192x1 .i32) (x2 : Vec F S1x8192 .i32) : FVec F S512x512 .f32 :=
  k0_pay6 (labA i x1) (labB i x2)

/-- Between the first and the last point the first accumulator ends at its previous contents plus the tile's equal-label sum. -/
theorem scratch0_B (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i)
    (x0 : Vec F S8192x256 .f32) (x1 : Vec F S8192x1 .i32) (x2 : Vec F S1x8192 .i32) (xs0 xs1 : Vec F S1x1 .f32) :
    sout0_B_0 c i a2 h2 a3 h3 a4 h4 a5 h5 a6 h6 a7 h7 a8 h8 hc0 hc1 x0 x1 x2 xs0 xs1 = k0_pay1 (distTile i x0) (maskTile i x1 x2) xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  sl_unfold_words
  rw [View.canon_unit_zero hz]
  simp only [View.readAt_eq_ld, h2.read_unread, h3.read_unread, h4.read_unread, h7.read_unread, View.ld_unit_zero (S := S1x1) hz]
  rfl

/-- Between the first and the last point the second accumulator ends at its previous contents plus the tile's different-label sum. -/
theorem scratch1_B (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i)
    (x0 : Vec F S8192x256 .f32) (x1 : Vec F S8192x1 .i32) (x2 : Vec F S1x8192 .i32) (xs0 xs1 : Vec F S1x1 .f32) :
    sout0_B_1 c i a2 h2 a3 h3 a4 h4 a5 h5 a6 h6 a7 h7 a8 h8 hc0 hc1 x0 x1 x2 xs0 xs1 = k0_pay2 (distTile i x0) (maskTile i x1 x2) xs1 := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  sl_unfold_words
  rw [View.canon_unit_zero hz]
  simp only [View.readAt_eq_ld, h2.read_unread, h3.read_unread, h4.read_unread, h8.read_unread, View.ld_unit_zero (S := S1x1) hz]
  rfl

/-- At the last point the first accumulator ends at its previous contents plus the tile's equal-label sum. -/
theorem scratch0_C (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i)
    (x0 : Vec F S8192x256 .f32) (x1 : Vec F S8192x1 .i32) (x2 : Vec F S1x8192 .i32) (xs0 xs1 : Vec F S1x1 .f32) :
    sout0_C_0 c i a2 h2 a3 h3 a4 h4 a5 h5 a6 h6 a7 h7 a8 h8 hc0 hc1 x0 x1 x2 xs0 xs1 = k0_pay1 (distTile i x0) (maskTile i x1 x2) xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h2.read_unread, h3.read_unread, h4.read_unread, h7.read_unread, View.ld_unit_zero (S := S1x1) hz]
  rfl

/-- At the last point the second accumulator ends at its previous contents plus the tile's different-label sum. -/
theorem scratch1_C (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i)
    (x0 : Vec F S8192x256 .f32) (x1 : Vec F S8192x1 .i32) (x2 : Vec F S1x8192 .i32) (xs0 xs1 : Vec F S1x1 .f32) :
    sout0_C_1 c i a2 h2 a3 h3 a4 h4 a5 h5 a6 h6 a7 h7 a8 h8 hc0 hc1 x0 x1 x2 xs0 xs1 = k0_pay2 (distTile i x0) (maskTile i x1 x2) xs1 := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h2.read_unread, h3.read_unread, h4.read_unread, h8.read_unread, View.ld_unit_zero (S := S1x1) hz]
  rfl

/-- At the last point the first output receives the first accumulator's final contents. -/
theorem out3_C (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i)
    (x0 : Vec F S8192x256 .f32) (x1 : Vec F S8192x1 .i32) (x2 : Vec F S1x8192 .i32) (xs0 xs1 : Vec F S1x1 .f32) :
    out0_C_3 c i a2 h2 a3 h3 a4 h4 a5 h5 a6 h6 a7 h7 a8 h8 hc0 hc1 x0 x1 x2 xs0 xs1 = k0_pay1 (distTile i x0) (maskTile i x1 x2) xs0 := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h2.read_unread, h3.read_unread, h4.read_unread, h7.read_unread, View.ld_unit_zero (S := S1x1) hz]
  rw [View.readCov_unit_zero (S := S1x1) _ hz]
  rfl

/-- At the last point the second output receives the second accumulator's final contents. -/
theorem out4_C (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i)
    (x0 : Vec F S8192x256 .f32) (x1 : Vec F S8192x1 .i32) (x2 : Vec F S1x8192 .i32) (xs0 xs1 : Vec F S1x1 .f32) :
    out0_C_4 c i a2 h2 a3 h3 a4 h4 a5 h5 a6 h6 a7 h7 a8 h8 hc0 hc1 x0 x1 x2 xs0 xs1 = k0_pay2 (distTile i x0) (maskTile i x1 x2) xs1 := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h2.read_unread, h3.read_unread, h4.read_unread, h8.read_unread, View.ld_unit_zero (S := S1x1) hz]
  rw [View.readCov_unit_zero (S := S1x1) _ hz]
  rfl

/-- At the first point the first accumulator is set to zero and then receives the tile's equal-label sum. -/
theorem scratch0_A (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i)
    (x0 : Vec F S8192x256 .f32) (x1 : Vec F S8192x1 .i32) (x2 : Vec F S1x8192 .i32) :
    sout0_A_0 c i a2 h2 a3 h3 a4 h4 a5 h5 a6 h6 a7 h7 a8 h8 hc0 hc1 x0 x1 x2 = k0_pay1 (distTile i x0) (maskTile i x1 x2) k0_pay3 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h7.read_unread, View.ld_unit_zero (S := S1x1) hz]
  rfl

/-- At the first point the second accumulator is set to zero and then receives the tile's different-label sum. -/
theorem scratch1_A (c : Dev nD) (i : grid0.Coords) (a2 : Memref sig .tc .vmem S8192x256 .f32) (h2 : a2.IsWhole)
    (a3 : Memref sig .tc .vmem S8192x1 .i32) (h3 : a3.IsWhole) (a4 : Memref sig .tc .vmem S1x8192 .i32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i)
    (x0 : Vec F S8192x256 .f32) (x1 : Vec F S8192x1 .i32) (x2 : Vec F S1x8192 .i32) :
    sout0_A_1 c i a2 h2 a3 h3 a4 h4 a5 h5 a6 h6 a7 h7 a8 h8 hc0 hc1 x0 x1 x2 = k0_pay2 (distTile i x0) (maskTile i x1 x2) k0_pay4 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h8.read_unread, View.ld_unit_zero (S := S1x1) hz]
  rfl

end Cert.KernelIdeal.Pieces

end
-- ==== Proof.Accumulate.lean ====
/-
  The two accumulators point by point.

  At every point the body adds the point's tile sums to the accumulators; the first point starts them from zero, and
  the last point also copies them to the outputs. So after point n each accumulator is the chain: zero, then one step
  per point 0 .. n, a step adding that point's tile sum to what the point before left. This is an induction on the
  point, never an enumeration of the grid.
-/
import proofs.«157157_j61418032333461_2_alg».proof.Proof.Pieces

noncomputable section

namespace Cert.KernelIdeal.Accumulate

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- One step of the first accumulator at point t: the point's equal-label tile sum added to the previous contents. -/
def stepS (c : Dev nD) (t : Fin cfg0.N) (prev : Vec F S1x1 .f32) : Vec F S1x1 .f32 :=
  k0_pay1 (distTile (grid0.coords t) (iblk m c 0 t)) (maskTile (grid0.coords t) (iblk m c 1 t) (iblk m c 2 t)) prev

/-- One step of the second accumulator at point t. -/
def stepD (c : Dev nD) (t : Fin cfg0.N) (prev : Vec F S1x1 .f32) : Vec F S1x1 .f32 :=
  k0_pay2 (distTile (grid0.coords t) (iblk m c 0 t)) (maskTile (grid0.coords t) (iblk m c 1 t) (iblk m c 2 t)) prev

/-- The first accumulator after point n: from the zero block, one step per point. -/
def chainS (c : Dev nD) : (n : ℕ) → n < cfg0.N → Vec F S1x1 .f32
  | 0, h => stepS m c ⟨0, h⟩ k0_pay3
  | n + 1, h => stepS m c ⟨n + 1, h⟩ (chainS c n (Nat.lt_of_succ_lt h))

/-- The second accumulator after point n. -/
def chainD (c : Dev nD) : (n : ℕ) → n < cfg0.N → Vec F S1x1 .f32
  | 0, h => stepD m c ⟨0, h⟩ k0_pay4
  | n + 1, h => stepD m c ⟨n + 1, h⟩ (chainD c n (Nat.lt_of_succ_lt h))

/-- What the generated recursion says the accumulators hold after point n is the chain. -/
theorem scratch_eq (c : Dev nD) : ∀ (n : ℕ) (h : n < cfg0.N),
    (outsAt0 m c n h).2.2.1 = chainS m c n h ∧ (outsAt0 m c n h).2.2.2 = chainD m c n h
  | 0, h => by
    have k1 : ¬(⟨0, h⟩ : Fin cfg0.N).val % 256 = 255 := by show ¬(0 : ℕ) % 256 = 255; decide
    have hA0 : cond0_0 (grid0.coords ⟨0, h⟩) := (hcond0_0 ⟨0, h⟩).mpr rfl
    have hA1 : ¬cond0_1 (grid0.coords ⟨0, h⟩) := fun hc => k1 ((hcond0_1 ⟨0, h⟩).mp hc)
    rw [outsAt0_A m c ⟨0, h⟩ rfl k1]
    exact ⟨scratch0_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) hA0 hA1 (iblk m c 0 ⟨0, h⟩) (iblk m c 1 ⟨0, h⟩) (iblk m c 2 ⟨0, h⟩), scratch1_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) hA0 hA1 (iblk m c 0 ⟨0, h⟩) (iblk m c 1 ⟨0, h⟩) (iblk m c 2 ⟨0, h⟩)⟩
  | n + 1, h => by
    have hN : cfg0.N = 256 := N_0
    have h0 : ¬(⟨n + 1, h⟩ : Fin cfg0.N).val % 256 = 0 := by dsimp only; omega
    have hB0 : ¬cond0_0 (grid0.coords ⟨n + 1, h⟩) := fun hc => h0 ((hcond0_0 ⟨n + 1, h⟩).mp hc)
    obtain ⟨ih0, ih1⟩ := scratch_eq c n (Nat.lt_of_succ_lt h)
    by_cases h1 : (⟨n + 1, h⟩ : Fin cfg0.N).val % 256 = 255
    · have hC1 : cond0_1 (grid0.coords ⟨n + 1, h⟩) := (hcond0_1 ⟨n + 1, h⟩).mpr h1
      rw [outsAt0_C m c ⟨n + 1, h⟩ h0 h1]
      constructor
      · refine (scratch0_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) hB0 hC1 (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_
        show stepS m c ⟨n + 1, h⟩ (outsAt0 m c n (Nat.lt_of_succ_lt h)).2.2.1 = stepS m c ⟨n + 1, h⟩ (chainS m c n (Nat.lt_of_succ_lt h))
        rw [ih0]
      · refine (scratch1_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) hB0 hC1 (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_
        show stepD m c ⟨n + 1, h⟩ (outsAt0 m c n (Nat.lt_of_succ_lt h)).2.2.2 = stepD m c ⟨n + 1, h⟩ (chainD m c n (Nat.lt_of_succ_lt h))
        rw [ih1]
    · have hB1 : ¬cond0_1 (grid0.coords ⟨n + 1, h⟩) := fun hc => h1 ((hcond0_1 ⟨n + 1, h⟩).mp hc)
      rw [outsAt0_B m c ⟨n + 1, h⟩ h0 h1]
      constructor
      · refine (scratch0_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) hB0 hB1 (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_
        show stepS m c ⟨n + 1, h⟩ (outsAt0 m c n (Nat.lt_of_succ_lt h)).2.2.1 = stepS m c ⟨n + 1, h⟩ (chainS m c n (Nat.lt_of_succ_lt h))
        rw [ih0]
      · refine (scratch1_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) hB0 hB1 (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_
        show stepD m c ⟨n + 1, h⟩ (outsAt0 m c n (Nat.lt_of_succ_lt h)).2.2.2 = stepD m c ⟨n + 1, h⟩ (chainD m c n (Nat.lt_of_succ_lt h))
        rw [ih1]

end Cert.KernelIdeal.Accumulate

end
-- ==== Proof.Final.lean ====
/-
  What the kernel's two result arrays hold after the region, and the program's result after the host lines that follow.

  Each output window is written back once, at the last grid point, where the body has just copied the accumulator into
  it; the window's one block is the whole 1 x 1 array. So each result array ends holding the accumulator's final
  contents. The host lines after the region read the two arrays as scalars, divide each by the number of pairs, scale
  by ten and add.
-/
import proofs.«157157_j61418032333461_2_alg».proof.Proof.Accumulate
import Idealize.ShloMosaic.Lib.Pipeline.Value
import Idealize.ShloMosaic.Lib.StableHlo.Run

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Pieces Cert.KernelIdeal.Accumulate

variable {F : FTy → Type} [FloatOps F]
variable (m : (ℓ : Loc nD τ sig) → Buf (Elt F) ℓ) (ρ : Dev nD → PrngReg)

/-- The grid has 256 points; the last is point 255. -/
theorem lt_last : 255 < cfg0.N := by rw [show cfg0.N = 256 from N_0]; decide

/-- At a point n + 1 where the outputs are written (the last one), the first output receives the first accumulator's
    contents after that point and the second output the second's. Stated at a symbolic point: the accumulators'
    recursion is never unfolded at a literal. -/
theorem outs_at_written (c : Dev nD) (n : ℕ) (h : n + 1 < cfg0.N) (h1 : (⟨n + 1, h⟩ : Fin cfg0.N).val % 256 = 255) :
    (outsAt0 m c (n + 1) h).1 = chainS m c (n + 1) h ∧ (outsAt0 m c (n + 1) h).2.1 = chainD m c (n + 1) h := by
  have hN : cfg0.N = 256 := N_0
  have h0 : ¬(⟨n + 1, h⟩ : Fin cfg0.N).val % 256 = 0 := by dsimp only; omega
  have hB0 : ¬cond0_0 (grid0.coords ⟨n + 1, h⟩) := fun hc => h0 ((hcond0_0 ⟨n + 1, h⟩).mp hc)
  have hC1 : cond0_1 (grid0.coords ⟨n + 1, h⟩) := (hcond0_1 ⟨n + 1, h⟩).mpr h1
  obtain ⟨ih0, ih1⟩ := scratch_eq m c n (Nat.lt_of_succ_lt h)
  rw [outsAt0_C m c ⟨n + 1, h⟩ h0 h1]
  constructor
  · refine (out3_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) hB0 hC1 (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_
    show stepS m c ⟨n + 1, h⟩ (outsAt0 m c n (Nat.lt_of_succ_lt h)).2.2.1 = stepS m c ⟨n + 1, h⟩ (chainS m c n (Nat.lt_of_succ_lt h))
    rw [ih0]
  · refine (out4_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) hB0 hC1 (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_
    show stepD m c ⟨n + 1, h⟩ (outsAt0 m c n (Nat.lt_of_succ_lt h)).2.2.2 = stepD m c ⟨n + 1, h⟩ (chainD m c n (Nat.lt_of_succ_lt h))
    rw [ih1]

/-- The accumulators' contents after point k depend on k only, not on the proof that k is a point. -/
theorem chainS_at (c : Dev nD) (k : ℕ) (hk : k < cfg0.N) (e : k = 255) : chainS m c k hk = chainS m c 255 lt_last := by
  subst e; rfl
theorem chainD_at (c : Dev nD) (k : ℕ) (hk : k < cfg0.N) (e : k = 255) : chainD m c k hk = chainD m c 255 lt_last := by
  subst e; rfl

/-- The first result array's final contents: the first accumulator after the last point. -/
abbrev res3 (c : Dev nD) : Buf (Elt F) ((c : Thread nD τ).loc main_v2_0) := chainS m c 255 lt_last
/-- The second result array's final contents. -/
abbrev res4 (c : Dev nD) : Buf (Elt F) ((c : Thread nD τ).loc main_v2_1) := chainD m c 255 lt_last

/-- What a point that writes the first output back leaves in its buffer is the first result array's final contents. -/
theorem after3_written (c : Dev nD) (t : Fin cfg0.N) (hf : (cfg0.win 3).flush t = true) :
    (dats m 0 c).after 3 t = res3 m c := by
  have hN : cfg0.N = 256 := N_0
  have h255 : t.val % 256 = 255 := (flush0_3 t).mp hf
  obtain ⟨tv, ht⟩ := t
  obtain ⟨n, rfl⟩ : ∃ n, tv = n + 1 := ⟨tv - 1, by dsimp only at h255; omega⟩
  rw [after0_3]
  exact ((outs_at_written m c n ht h255).1).trans (chainS_at m c (n + 1) ht (by dsimp only at h255; omega))

/-- The same for the second output. -/
theorem after4_written (c : Dev nD) (t : Fin cfg0.N) (hf : (cfg0.win 4).flush t = true) :
    (dats m 0 c).after 4 t = res4 m c := by
  have hN : cfg0.N = 256 := N_0
  have h255 : t.val % 256 = 255 := (flush0_4 t).mp hf
  obtain ⟨tv, ht⟩ := t
  obtain ⟨n, rfl⟩ : ∃ n, tv = n + 1 := ⟨tv - 1, by dsimp only at h255; omega⟩
  rw [after0_4]
  exact ((outs_at_written m c n ht h255).2).trans (chainD_at m c (n + 1) ht (by dsimp only at h255; omega))

/-- The output windows' block index is (0, 0) and their block is one entry, at every point. -/
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem ext3 : ∀ t : Fin cfg0.N, win0_3.xsize (grid0.coords t) 0 = 1 ∧ win0_3.xsize (grid0.coords t) 1 = 1 :=
  (by decide +kernel : ∀ t : Fin grid0.N, win0_3.xsize (grid0.coords t) 0 = 1 ∧ win0_3.xsize (grid0.coords t) 1 = 1)
theorem ext4 : ∀ t : Fin cfg0.N, win0_4.xsize (grid0.coords t) 0 = 1 ∧ win0_4.xsize (grid0.coords t) 1 = 1 :=
  (by decide +kernel : ∀ t : Fin grid0.N, win0_4.xsize (grid0.coords t) 0 = 1 ∧ win0_4.xsize (grid0.coords t) 1 = 1)

/-- The point that writes the first output back writes the first result array's final contents: its block, read at
    zero offsets, is the whole 1 x 1 array. -/
theorem flushed3_eq (c : Dev nD) (t : Fin cfg0.N) (hf : (cfg0.win 3).flush t = true) :
    (dats m 0 c).flushed 3 t = ((cfg0.win 3).blk t).view.read (Elt F) (res3 m c) := by
  show (cfg0.win 3).cut (grid0.coords t) ((dats m 0 c).after 3 t) = _
  rw [after3_written m c t hf]
  have hz' : (fun a => win0_3.index t a * main_v2_0.ty.shape.size a) = fun _ => 0 := funext fun a => by
    match a with
    | ⟨0, _⟩ => show win0_3.index t 0 * 1 = 0; rw [(idx3 t).1]
    | ⟨1, _⟩ => show win0_3.index t 1 * 1 = 0; rw [(idx3 t).2]
  exact (Memref.read_access_unit_zero (Elt F) main_v2_0 hz' (fun a => by rw [congrFun hz' a]; simp) (res3 m c)).symm

theorem flushed4_eq (c : Dev nD) (t : Fin cfg0.N) (hf : (cfg0.win 4).flush t = true) :
    (dats m 0 c).flushed 4 t = ((cfg0.win 4).blk t).view.read (Elt F) (res4 m c) := by
  show (cfg0.win 4).cut (grid0.coords t) ((dats m 0 c).after 4 t) = _
  rw [after4_written m c t hf]
  have hz' : (fun a => win0_4.index t a * main_v2_1.ty.shape.size a) = fun _ => 0 := funext fun a => by
    match a with
    | ⟨0, _⟩ => show win0_4.index t 0 * 1 = 0; rw [(idx4 t).1]
    | ⟨1, _⟩ => show win0_4.index t 1 * 1 = 0; rw [(idx4 t).2]
  exact (Memref.read_access_unit_zero (Elt F) main_v2_1 hz' (fun a => by rw [congrFun hz' a]; simp) (res4 m c)).symm

/-- The last point. -/
abbrev tLast : Fin cfg0.N := ⟨255, lt_last⟩

/-- So the first result array ends holding the first accumulator's final contents: the last point's block covers it. -/
theorem final3 (c : Dev nD) : (dats m 0 c).arrAt 3 cfg0.N = res3 m c :=
  (dats m 0 c).arrAt_eq_of_cover 3 (res3 m c) (flushed3_eq m c) fun i =>
    ⟨tLast, (flush0_3 tLast).mpr rfl, by
      show i ∈ ((View.whole main_v2_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [(idx3 tLast).1, (ext3 tLast).1]; omega
      | ⟨1, _⟩ =>
        show win0_3.index tLast 1 * win0_3.size 1 ≤ (i 1 : Nat) ∧ (i 1 : Nat) < win0_3.index tLast 1 * win0_3.size 1 + win0_3.xsize (grid0.coords tLast) 1
        rw [(idx3 tLast).2, (ext3 tLast).2]; omega⟩

theorem final4 (c : Dev nD) : (dats m 0 c).arrAt 4 cfg0.N = res4 m c :=
  (dats m 0 c).arrAt_eq_of_cover 4 (res4 m c) (flushed4_eq m c) fun i =>
    ⟨tLast, (flush0_4 tLast).mpr rfl, by
      show i ∈ ((View.whole main_v2_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [(idx4 tLast).1, (ext4 tLast).1]; omega
      | ⟨1, _⟩ =>
        show win0_4.index tLast 1 * win0_4.size 1 ≤ (i 1 : Nat) ∧ (i 1 : Nat) < win0_4.index tLast 1 * win0_4.size 1 + win0_4.xsize (grid0.coords tLast) 1
        rw [(idx4 tLast).2, (ext4 tLast).2]; omega⟩

/-- The host lines after the region, as a function of the two result arrays: each read as a scalar, divided by the
    number of pairs, scaled by ten; the two added. -/
def tailOf (a b : Vec F S1x1 .f32) : Vec F S_ .f32 :=
  addf (mulf (constant S_ .f32 0x41200000#32) (Host.divf (shapeCast S_ a shapeCasts_S1x1_S_) (constant S_ .f32 0x4C800000#32)))
    (mulf (constant S_ .f32 0x41200000#32) (Host.divf (shapeCast S_ b shapeCasts_S1x1_S_) (constant S_ .f32 0x4C800000#32)))

/-- After the host lines that follow the region the program's result is the tail of the two result arrays. -/
theorem tail_eq (c : Dev nD) :
    (Pipeline.afterTail₀ cfgs (dats m) 0 (V0 m) [hostOps1] c main_v9 : S_.Idx → Elt F .f32)
      = tailOf (res3 m c) (res4 m c) := by
  unfold Pipeline.afterTail₀
  show StableHlo.after hostOps1 _ (Proc.devRef .tc main_v9) = _
  after_results
  rw [Pipeline.withArrays_arr spec0 launch0.win.arr_inj c _ _ 3, Pipeline.withArrays_arr spec0 launch0.win.arr_inj c _ _ 4,
    final3 m c, final4 m c]
  rfl

/-- The run, read: the result at the tail of the accumulators' final contents, the arguments unchanged. -/
theorem run : θ_run defs (onTc (τ := τ) (main (F := F))) ⟨m, fun _ => 0, ρ⟩ fun r => ∀ c : Dev nD,
      r.2.mem ((c.tc : Thread nD τ).loc main_v9) = tailOf (res3 m c) (res4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c)⟩)
    (run_main m ρ)

end Cert.KernelIdeal.Final

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.LibTilesOfEq.lean ====
/-
  The tiling law for an index range whose size is given as a product.

  A sum over n positions, where n = a * b, is the sum over the a tiles of the sum over the b positions of each tile,
  position r of tile t being b * t + r. The size n is a variable tied to the product by a hypothesis, not the product
  itself: at a literal size such as 8192 = 16 * 512 the law then applies directly to functions on the 8192 positions,
  and the two spellings of the size are related only by that one numeric equation.
-/
import proofs.«157157_j61418032333461_2_alg».proof.Proof.LibTileSum

noncomputable section

open scoped BigOperators

namespace Cert.Lib.TilesOfEq

/-- A sum over the n = a * b positions is the sum over the a tiles of the sum over the b positions b * t + r of each. -/
theorem sum_tiles_of_eq {M : Type*} [AddCommMonoid M] (a b n : ℕ) (h : a * b = n) (g : Fin n → M) :
    ∑ i, g i = ∑ t : Fin a, ∑ r : Fin b,
      g ⟨b * t.val + r.val, by rw [← h]; exact Cert.Lib.TileSum.tile_lt t.isLt r.isLt⟩ := by
  subst h
  exact Cert.Lib.TileSum.sum_fin_tiles a b g

end Cert.Lib.TilesOfEq

end
-- ==== Proof.Spec.lean ====
/-
  The pairwise label loss as one formula over the extended reals.

  For samples x (8192 rows of 256 entries) and integer labels l, write sq i for the sum of squares of row i and
  gram i j for the inner product of rows i and j. The scaled squared distance is
      dist i j = ((sq i + sq j) - 2 * gram i j) * c
  for a scale c, the mask same i j is 1 when the two labels agree and 0 otherwise, and the two summands are
      same * dist            and            max 0 ((1 - same) * (1 - dist)).
  Each is summed over all pairs (i, j); the loss is 10 * (first / n) + 10 * (second / n).

  Summing over all pairs is the same as summing tile by tile: the rows split into 16 tiles of 512, so the pairs split
  into 256 tiles numbered 16 * a + b, and addition on the extended reals is commutative and associative, which is all
  the regrouping uses (no finiteness).
-/
import Idealize.ShloMosaic.PureOps.Ideal.Laws
import Idealize.ShloMosaic.Lib.ValueIdx
import proofs.«157157_j61418032333461_2_alg».proof.Proof.LibTileSum
import proofs.«157157_j61418032333461_2_alg».proof.Proof.LibTilesOfEq

noncomputable section

open scoped BigOperators

namespace Cert.Spec

open Idealize.ShloMosaic Idealize.ShloMosaic.ValueIdx

/-- The samples: 8192 rows of 256 extended reals. -/
abbrev Samples := (⟨2, ![8192, 256]⟩ : Shape).Idx → EReal

/-- Row i's sum of squares. -/
def sq (x : Samples) (i : Fin 8192) : EReal := ∑ k : Fin 256, x (ix2 i k) * x (ix2 i k)

/-- The inner product of rows i and j. -/
def gram (x : Samples) (i j : Fin 8192) : EReal := ∑ k : Fin 256, x (ix2 i k) * x (ix2 j k)

/-- The scaled squared distance of rows i and j, for a factor two and a scale c given as extended reals. -/
def dist (two c : EReal) (x : Samples) (i j : Fin 8192) : EReal := ((sq x i + sq x j) - two * gram x i j) * c

/-- The summand over pairs with equal labels. -/
def termSame (s d : EReal) : EReal := s * d

/-- The summand over pairs with different labels. -/
def termDiff (zero one s d : EReal) : EReal := max zero ((one - s) * (one - d))

/-- A sum over all pairs of rows. -/
def total (f : Fin 8192 → Fin 8192 → EReal) : EReal := ∑ i : Fin 8192, ∑ j : Fin 8192, f i j

/-- Row p of row tile a. -/
def row (a : Fin 16) (p : Fin 512) : Fin 8192 :=
  ⟨512 * a.val + p.val, by have := a.isLt; have := p.isLt; omega⟩

/-- A sum over the 8192 rows is the sum over the 16 row tiles of the sum over the 512 rows of each. -/
theorem sum_rows (g : Fin 8192 → EReal) : ∑ i, g i = ∑ a : Fin 16, ∑ p : Fin 512, g (row a p) :=
  Cert.Lib.TilesOfEq.sum_tiles_of_eq 16 512 8192 (by norm_num) g

/-- A sum over all pairs is the sum over the 16 x 16 tiles of the sum over the 512 x 512 pairs of each tile. -/
theorem total_tiles (f : Fin 8192 → Fin 8192 → EReal) :
    total f = ∑ a : Fin 16, ∑ b : Fin 16, ∑ p : Fin 512, ∑ q : Fin 512, f (row a p) (row b q) := by
  unfold total
  rw [sum_rows (fun i => ∑ j : Fin 8192, f i j)]
  refine Finset.sum_congr rfl fun a _ => ?_
  calc (∑ p : Fin 512, ∑ j : Fin 8192, f (row a p) j)
      = ∑ p : Fin 512, ∑ b : Fin 16, ∑ q : Fin 512, f (row a p) (row b q) :=
        Finset.sum_congr rfl fun p _ => sum_rows (fun j => f (row a p) j)
    _ = ∑ b : Fin 16, ∑ p : Fin 512, ∑ q : Fin 512, f (row a p) (row b q) := Finset.sum_comm

end Cert.Spec

end
-- ==== Proof.Consts.lean ====
/-
  The two float words on which the kernel and the reference differ, as the real numbers they denote.

  The reference divides the distance by the word for 256; the kernel multiplies by the word for 1/256. Both are exact
  powers of two, so each word denotes its number exactly, and a quotient by 256 is the product with 1/256 on every
  extended real. Every other word is spelled identically by the two programs and is never evaluated. All evaluations
  of words are kept in this one module.
-/
import Idealize.ShloMosaic.PureOps.Ideal

noncomputable section

namespace Cert.Consts

open Idealize.ShloMosaic

/-- The word 0x43800000 denotes the real number 256. -/
theorem ofBits_256 : Ideal.ofBits .f32 0x43800000#32 = ((256 : ℝ) : EReal) := by
  simp [Ideal.ofBits, Ideal.ieee, -EReal.coe_mul]; norm_num

/-- The word 0x3B800000 denotes the real number 1/256. -/
theorem ofBits_inv256 : Ideal.ofBits .f32 0x3B800000#32 = ((1 / 256 : ℝ) : EReal) := by
  simp [Ideal.ofBits, Ideal.ieee, -EReal.coe_mul]; norm_num

/-- Dividing by the word for 256 is multiplying by the word for 1/256, on every extended real. -/
theorem div_256 (x : EReal) :
    Ideal.div x (Ideal.ofBits .f32 0x43800000#32) = x * Ideal.ofBits .f32 0x3B800000#32 := by
  rw [ofBits_256, ofBits_inv256]
  exact Ideal.div_coe (by norm_num : (256 : ℝ) ≠ 0) x

end Cert.Consts

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibColReduce.lean ====
/-
  Reductions of an n x k array along its columns, read at a column given by its coordinate. The reduced index (c) with
  the outer coordinate s put back is the array index (s, c); so a sum over the first axis at c is the finite sum over s
  of the entries (s, c), for the vector unit's reduction and for the host's (after its initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Column c's reduced index with the outer coordinate s inserted is (s, c). -/
theorem lift_col {n k : ℕ} (h : (⟨2, ![n, k]⟩ : Shape).Reduces [0] (⟨1, ![k]⟩ : Shape)) (c : Fin k)
    (s : Fin ((⟨2, ![n, k]⟩ : Shape).size 0)) : h.lift (ix1 c) s = ix2 (⟨s.val, s.isLt⟩ : Fin n) c := by
  funext a; apply Fin.ext
  fin_cases a <;> rfl

/-- A vector-unit sum over the first axis, at column c: the sum of the column's entries. -/
theorem multiReduction_add_col {n k : ℕ} {φ : FTy} (src : FVec Ideal (⟨2, ![n, k]⟩ : Shape) φ) (acc : BitVec φ.bits)
    (h : (⟨2, ![n, k]⟩ : Shape).Reduces [0] (⟨1, ![k]⟩ : Shape)) (hφ : FKind.Formats φ) (hacc : acc = FKind.add.neutral φ hφ) (c : Fin k) :
    multiReduction .add [0] (⟨1, ![k]⟩ : Shape) src acc h hφ hacc (ix1 c) = ∑ s : Fin n, (src (ix2 s c) : EReal) :=
  (Ideal.multiReduction_add_single src acc h hφ hacc (ix1 c)).trans
    (Finset.sum_congr rfl fun s _ => congrArg src (lift_col h c s))

/-- The host's sum over the first axis, at column c: the initial value plus the sum of the column's entries. -/
theorem hostReduceAdd_col {n k : ℕ} (h' : (⟨2, ![n, k]⟩ : Shape).ReducesTo [0] (⟨1, ![k]⟩ : Shape))
    (h : (⟨2, ![n, k]⟩ : Shape).Reduces [0] (⟨1, ![k]⟩ : Shape)) (x : (⟨2, ![n, k]⟩ : Shape).Idx → EReal) (init : EReal) (c : Fin k) :
    Ideal.hostReduceAdd h' x init (ix1 c) = init + ∑ s : Fin n, x (ix2 s c) :=
  (Ideal.hostReduceAdd_single h' h x init (ix1 c)).trans
    (congrArg (init + ·) (Finset.sum_congr rfl fun s _ => congrArg x (lift_col h c s)))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The body's arithmetic read entry by entry, at the extended reals.

  Given the two 512 x 256 slabs A (row tile) and B (column tile) of the samples and the two label slabs, the tile of
  scaled distances at (p, q) is ((sum_k A(p,k)^2 + sum_k B(q,k)^2) - 2 * sum_k A(p,k) B(q,k)) * c: the row sums of
  squares are kept as a column and as a transposed row and broadcast across the tile, and the inner products are one
  matrix product of A with B transposed, whose operands' narrowing to a shorter format is the identity here.
  The mask at (p, q) is the one-bit comparison of label p of the column with label q of the row, widened and read as a
  number. Each accumulator payload is the previous contents plus the sum over the tile, taken row by row and then down
  the column of row sums.
-/
import proofs.«157157_j61418032333461_2_alg».proof.Proof.Gen.KernelIdeal.Skeleton
import proofs.«157157_j61418032333461_2_alg».proof.Proof.LibDotIx2
import proofs.«157157_j61418032333461_2_alg».proof.Proof.LibRowReduce
import proofs.«157157_j61418032333461_2_alg».proof.Proof.LibColReduce
import proofs.«157157_j61418032333461_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.TcCoe Idealize.ShloMosaic.ValueIdx
open Cert.KernelIdeal Cert.KernelIdeal.Gen

/-- The body's matrix product contracts the left operand's second axis with the right operand's first and batches
    nothing: the four coordinate facts of its operand indices. -/
theorem plainDot : PlainDot (M := 512) (K := 256) (N := 512) dot_S512x256_S256x512_S512x512_1_0_0_1_n_n where
  rank := rfl
  size := rfl
  l0 := fun j q => by
    unfold DotDims.lhsIdx
    rw [dif_neg (show ¬(0 : Fin S512x256.rank) ∈ dot_S512x256_S256x512_S512x512_1_0_0_1_n_n.lhsBatch by decide),
      dif_pos (show (0 : Fin S512x256.rank) ∈ dot_S512x256_S256x512_S512x512_1_0_0_1_n_n.lhsNonContracting by decide)]
    rfl
  l1 := fun j q => dot_S512x256_S256x512_S512x512_1_0_0_1_n_n.lhsIdx_val_of_single rfl j q
  r0 := fun j q => dot_S512x256_S256x512_S512x512_1_0_0_1_n_n.rhsIdx_val_of_single rfl j q
  r1 := fun j q => by
    unfold DotDims.rhsIdx
    rw [dif_neg (show ¬(1 : Fin S256x512.rank) ∈ dot_S512x256_S256x512_S512x512_1_0_0_1_n_n.rhsBatch by decide),
      dif_pos (show (1 : Fin S256x512.rank) ∈ dot_S512x256_S256x512_S512x512_1_0_0_1_n_n.rhsNonContracting by decide)]
    rfl

/-- The mask at (p, q): label p of the column against label q of the row, one bit, widened to a word and read signed. -/
theorem mask_apply (la : Vec Ideal S512x1 .i32) (lb : Vec Ideal S1x512 .i32) (p q : Fin 512) :
    k0_pay6 (F := Ideal) la lb (ix2 p q)
      = FloatOps.sitofp (F := Ideal) .f32 ((IntOp.cmpi .eq (la (ix2 p (0 : Fin 1))) (lb (ix2 (0 : Fin 1) q))).setWidth 32) := by
  unfold k0_pay6
  rw [shapeCast_self, shapeCast_self]
  show FloatOps.sitofp (F := Ideal) .f32 ((IntOp.cmpi .eq (broadcastTo S512x512 la broadcasts_S512x1_S512x512 (ix2 p q))
      (broadcastTo S512x512 lb broadcasts_S1x512_S512x512 (ix2 p q))).setWidth 32) = _
  rw [broadcastTo_a1_ab_apply la broadcasts_S512x1_S512x512 p q, broadcastTo_1b_ab_apply lb broadcasts_S1x512_S512x512 p q]

/-- The first accumulator's payload at its one entry: the previous contents plus the sum over the tile of mask * distance. -/
theorem accSame_apply (S M : FVec Ideal S512x512 .f32) (acc : Vec Ideal S1x1 .f32) :
    k0_pay1 (F := Ideal) S M acc (ix2 (0 : Fin 1) (0 : Fin 1))
      = acc (ix2 (0 : Fin 1) (0 : Fin 1)) + ∑ p : Fin 512, ∑ q : Fin 512, (M (ix2 p q) : EReal) * (S (ix2 p q) : EReal) := by
  unfold k0_pay1
  rw [shapeCast_self]
  refine congrArg (acc (ix2 (0 : Fin 1) (0 : Fin 1)) + ·) ?_
  refine (shapeCast_a_a1_apply _ shapeCasts_S1_S1x1 (0 : Fin 1) (0 : Fin 1)).trans ?_
  refine (multiReduction_add_col _ _ reduces_S512x1_S1 (.inl rfl) rfl (0 : Fin 1)).trans ?_
  refine Finset.sum_congr rfl fun p _ => ?_
  refine (shapeCast_a_a1_apply _ shapeCasts_S512_S512x1 p (0 : Fin 1)).trans ?_
  exact multiReduction_add_row (mulf M S) _ reduces_S512x512_S512 (.inl rfl) rfl p

/-- The second accumulator's payload at its one entry: the previous contents plus the sum over the tile of
    max 0 ((1 - mask) * (1 - distance)). -/
theorem accDiff_apply (S M : FVec Ideal S512x512 .f32) (acc : Vec Ideal S1x1 .f32) :
    k0_pay2 (F := Ideal) S M acc (ix2 (0 : Fin 1) (0 : Fin 1))
      = acc (ix2 (0 : Fin 1) (0 : Fin 1)) + ∑ p : Fin 512, ∑ q : Fin 512,
          max (Ideal.ofBits .f32 0x00000000#32)
            ((Ideal.ofBits .f32 0x3F800000#32 - (M (ix2 p q) : EReal)) * (Ideal.ofBits .f32 0x3F800000#32 - (S (ix2 p q) : EReal))) := by
  unfold k0_pay2
  rw [shapeCast_self]
  refine congrArg (acc (ix2 (0 : Fin 1) (0 : Fin 1)) + ·) ?_
  refine (shapeCast_a_a1_apply _ shapeCasts_S1_S1x1 (0 : Fin 1) (0 : Fin 1)).trans ?_
  refine (multiReduction_add_col _ _ reduces_S512x1_S1 (.inl rfl) rfl (0 : Fin 1)).trans ?_
  refine Finset.sum_congr rfl fun p _ => ?_
  refine (shapeCast_a_a1_apply _ shapeCasts_S512_S512x1 p (0 : Fin 1)).trans ?_
  refine (multiReduction_add_row _ _ reduces_S512x512_S512 (.inl rfl) rfl p).trans ?_
  exact Finset.sum_congr rfl fun q _ => rfl

/-- A slab's row sums of squares, kept as a column and broadcast across the tile: at (p, q), row p's sum of squares. -/
theorem colSq (A : Vec Ideal S512x256 .f32) (p q : Fin 512) :
    broadcastTo S512x512 (shapeCast S512x1 (multiReduction (F := Ideal) .add [1] S512 (mulf (F := Ideal) A A) 0x00000000#32 reduces_S512x256_S512 (.inl rfl) rfl)
        shapeCasts_S512_S512x1) broadcasts_S512x1_S512x512 (ix2 p q)
      = ∑ k : Fin 256, (A (ix2 p k) : EReal) * (A (ix2 p k) : EReal) := by
  refine (broadcastTo_a1_ab_apply _ broadcasts_S512x1_S512x512 p q).trans ?_
  refine (shapeCast_a_a1_apply _ shapeCasts_S512_S512x1 p (0 : Fin 1)).trans ?_
  exact multiReduction_add_row (mulf (F := Ideal) A A) _ reduces_S512x256_S512 (.inl rfl) rfl p

/-- A slab's row sums of squares, kept as a column, transposed to a row and broadcast down the tile: at (p, q), row q's
    sum of squares. -/
theorem rowSq (B : Vec Ideal S512x256 .f32) (p q : Fin 512) :
    broadcastTo S512x512 (transpose S1x512 [1, 0] (shapeCast S512x1 (multiReduction (F := Ideal) .add [1] S512 (mulf (F := Ideal) B B) 0x00000000#32 reduces_S512x256_S512 (.inl rfl) rfl)
        shapeCasts_S512_S512x1) transposes_S512x1_p1_0_S1x512) broadcasts_S1x512_S512x512 (ix2 p q)
      = ∑ k : Fin 256, (B (ix2 q k) : EReal) * (B (ix2 q k) : EReal) := by
  refine (broadcastTo_1b_ab_apply _ broadcasts_S1x512_S512x512 p q).trans ?_
  refine (transpose_ix2_apply _ transposes_S512x1_p1_0_S1x512 (0 : Fin 1) q).trans ?_
  refine (shapeCast_a_a1_apply _ shapeCasts_S512_S512x1 q (0 : Fin 1)).trans ?_
  exact multiReduction_add_row (mulf (F := Ideal) B B) _ reduces_S512x256_S512 (.inl rfl) rfl q

/-- The matrix product of the row slab with the transposed column slab, into zeros: at (p, q), the inner product of
    row p of one with row q of the other. Narrowing the operands to a shorter format changes nothing here. -/
theorem gramAt (A B : Vec Ideal S512x256 .f32) (p q : Fin 512) :
    matmul (F := Ideal) dot_S512x256_S256x512_S512x512_1_0_0_1_n_n none (truncf (F := Ideal) .bf16 A bitsLt_bf16_f32)
        (transpose S256x512 [1, 0] (truncf (F := Ideal) .bf16 B bitsLt_bf16_f32) transposes_S512x256_p1_0_S256x512)
        (constant (F := Ideal) S512x512 .f32 0x00000000#32) (ix2 p q)
      = ∑ k : Fin 256, (A (ix2 p k) : EReal) * (B (ix2 q k) : EReal) := by
  refine (matmul_zero_ix2_any plainDot none _ _ p q).trans ?_
  refine Finset.sum_congr rfl fun k _ => ?_
  refine congrArg ((A (ix2 p k) : EReal) * ·) ?_
  exact transpose_ix2_apply (truncf (F := Ideal) .bf16 B bitsLt_bf16_f32) transposes_S512x256_p1_0_S256x512 k q

/-- The tile of scaled distances at (p, q): row p's sum of squares plus row q's, less twice their inner product, times
    the scale. -/
theorem dist_apply (A B : Vec Ideal S512x256 .f32) (p q : Fin 512) :
    k0_pay5 (F := Ideal) A B (ix2 p q)
      = (((∑ k : Fin 256, (A (ix2 p k) : EReal) * (A (ix2 p k) : EReal)) + ∑ k : Fin 256, (B (ix2 q k) : EReal) * (B (ix2 q k) : EReal))
          - Ideal.ofBits .f32 0x40000000#32 * ∑ k : Fin 256, (A (ix2 p k) : EReal) * (B (ix2 q k) : EReal))
        * Ideal.ofBits .f32 0x3B800000#32 := by
  have e : k0_pay5 (F := Ideal) A B (ix2 p q)
      = ((broadcastTo S512x512 (shapeCast S512x1 (multiReduction (F := Ideal) .add [1] S512 (mulf (F := Ideal) A A) 0x00000000#32 reduces_S512x256_S512 (.inl rfl) rfl) shapeCasts_S512_S512x1) broadcasts_S512x1_S512x512 (ix2 p q) + broadcastTo S512x512 (transpose S1x512 [1, 0] (shapeCast S512x1 (multiReduction (F := Ideal) .add [1] S512 (mulf (F := Ideal) B B) 0x00000000#32 reduces_S512x256_S512 (.inl rfl) rfl) shapeCasts_S512_S512x1) transposes_S512x1_p1_0_S1x512) broadcasts_S1x512_S512x512 (ix2 p q))
          - Ideal.ofBits .f32 0x40000000#32 * matmul (F := Ideal) dot_S512x256_S256x512_S512x512_1_0_0_1_n_n none (truncf (F := Ideal) .bf16 A bitsLt_bf16_f32) (transpose S256x512 [1, 0] (truncf (F := Ideal) .bf16 B bitsLt_bf16_f32) transposes_S512x256_p1_0_S256x512) (constant (F := Ideal) S512x512 .f32 0x00000000#32) (ix2 p q))
        * Ideal.ofBits .f32 0x3B800000#32 := rfl
  rw [e, colSq A p q, rowSq B p q, gramAt A B p q]

end Cert.KernelIdeal.Payload

end
-- ==== Proof.LibSliceLayout.lean ====
/-
  Two readings at an index given by coordinates, for the pieces a body cuts out of a staged block.

  A load through a unit-stride slice reads the contents at offset + local coordinate on every axis; and a [1, 1, n]
  piece recast as a [n] vector reads the piece's entry (0, 0, i) at i.
-/
import Idealize.ShloMosaic.Lib.Pipeline.Value
import Idealize.ShloMosaic.Lib.ValueIdx

namespace Idealize.ShloMosaic.ValueIdx

open Idealize.ShloMosaic

/-- A load through a unit-stride slice reads the contents at offset + local coordinate, axis by axis. -/
theorem ld_unit_apply {Val : EltTy → Type} {el : EltTy} {s : Shape} (X : s.Idx → Val el) (off size : Fin s.rank → ℕ) (inb : ∀ a, off a + size a ≤ s.size a)
    (y : (Rect.unit off size inb).shape.Idx) (i : s.Idx) (h : ∀ a, (i a).val = off a + (y a).val) :
    View.ld X (Rect.unit off size inb) y = X i :=
  congrArg X (funext fun a => Fin.ext (by rw [h a]; show off a + 1 * (y a).val = _; rw [Nat.one_mul]))

/-- A [1, 1, n] piece recast as a [n] vector reads, at i, the piece's entry (0, 0, i). -/
theorem shapeCast_11n_n_apply {α : Type} {n : ℕ} (x : (⟨3, ![1, 1, n]⟩ : Shape).Idx → α) (h : (⟨3, ![1, 1, n]⟩ : Shape).ShapeCasts ⟨1, ![n]⟩)
    (u u' : Fin 1) (i : Fin n) : shapeCast ⟨1, ![n]⟩ x h (ix1 i) = x (ix3 u u' i) :=
  shapeCast_apply x h _ _ (by
    have hu : u.val = 0 := by omega
    have hu' : u'.val = 0 := by omega
    rw [Shape.rowMajor_val_three, Shape.rowMajor_val_one]
    show (u.val * 1 + u'.val) * n + i.val = i.val
    simp [hu, hu'])

end Idealize.ShloMosaic.ValueIdx
-- ==== Proof.Blocks.lean ====
/-
  Where the kernel's blocks and slabs sit in the whole arrays.

  The grid has 16 x 16 points in row-major order, so point t has coordinates (t / 16, t % 16). Each input window's one
  block is its whole array, at every point. The body cuts its slabs at row 512 * a and row 512 * b for the point's
  coordinates (a, b); as these are below 16 the products stay far below the word size and are the plain products.
  The two label windows hold the label vector recast as a column and as a row.
-/
import proofs.«157157_j61418032333461_2_alg».proof.Proof.Gen.KernelIdeal.Frame
import proofs.«157157_j61418032333461_2_alg».proof.Proof.LibKeepdims
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Point t's first coordinate is t / 16. -/
theorem coords0 : ∀ t : Fin cfg0.N, (grid0.coords t 0).val = t.val / 16 :=
  (by decide +kernel : ∀ t : Fin grid0.N, (grid0.coords t 0).val = t.val / 16)
/-- Point t's second coordinate is t % 16. -/
theorem coords1 : ∀ t : Fin cfg0.N, (grid0.coords t 1).val = t.val % 16 :=
  (by decide +kernel : ∀ t : Fin grid0.N, (grid0.coords t 1).val = t.val % 16)

/-- A tile number below 16 times 512, computed on 32-bit words and read back as a natural number, is the plain product. -/
theorem off_word : ∀ n : Fin 16, BitVec.toNat (Scalar.indexCast (Scalar.muli (BitVec.ofNat 32 n.val) 512#32)) = 512 * n.val := by
  decide

/-- The row slab starts at row 512 * a, column 0. -/
theorem off1_0 (i : grid0.Coords) : k0_off1 i 0 = 512 * (i 0).val := off_word (i 0)
theorem off1_1 (i : grid0.Coords) : k0_off1 i 1 = 0 := rfl
/-- The column slab starts at row 512 * b, column 0. -/
theorem off2_0 (i : grid0.Coords) : k0_off2 i 0 = 512 * (i 1).val := off_word (i 1)
theorem off2_1 (i : grid0.Coords) : k0_off2 i 1 = 0 := rfl
/-- The label column's slab starts at row 512 * a. -/
theorem off3_0 (i : grid0.Coords) : k0_off3 i 0 = 512 * (i 0).val := off_word (i 0)
theorem off3_1 (i : grid0.Coords) : k0_off3 i 1 = 0 := rfl
/-- The label row's slab starts at column 512 * b. -/
theorem off4_0 (i : grid0.Coords) : k0_off4 i 0 = 0 := rfl
theorem off4_1 (i : grid0.Coords) : k0_off4 i 1 = 512 * (i 1).val := off_word (i 1)

/-- Window 0's block index is (0, 0) at every point. -/
theorem idx0 : ∀ t : Fin cfg0.N, win0_0.index t 0 = 0 ∧ win0_0.index t 1 = 0 :=
  (by decide +kernel : ∀ t : Fin grid0.N, win0_0.index t 0 = 0 ∧ win0_0.index t 1 = 0)

/-- Window 0's block is the whole samples array, at every point. -/
theorem iblk0_apply (c : Dev nD) (t : Fin cfg0.N) (y : S8192x256.Idx) :
    (iblk m c 0 t : Vec F S8192x256 .f32) y = V m c main_arg2 y := by
  unfold iblk
  rw [View.read_apply]
  show V m c main_arg2 _ = V m c main_arg2 y
  congr 1
  funext a
  apply Fin.ext
  match a with
  | ⟨0, _⟩ => show win0_0.index t 0 * 8192 + 1 * (y 0).val = (y 0).val; rw [(idx0 t).1]; omega
  | ⟨1, _⟩ => show win0_0.index t 1 * 256 + 1 * (y 1).val = (y 1).val; rw [(idx0 t).2]; omega

/-- Window 1's block index is (0, 0) at every point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Window 2's block index is (0, 0) at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Window 1's block is the whole label column, at every point. -/
theorem iblk1_apply (c : Dev nD) (t : Fin cfg0.N) (y : S8192x1.Idx) :
    (iblk m c 1 t : Vec F S8192x1 .i32) y = V m c main_v0 y := by
  unfold iblk
  rw [View.read_apply]
  show V m c main_v0 _ = V m c main_v0 y
  congr 1
  funext a
  apply Fin.ext
  match a with
  | ⟨0, _⟩ => show win0_1.index t 0 * 8192 + 1 * (y 0).val = (y 0).val; rw [(idx1 t).1]; omega
  | ⟨1, _⟩ => show win0_1.index t 1 * 1 + 1 * (y 1).val = (y 1).val; rw [(idx1 t).2]; omega

/-- Window 2's block is the whole label row, at every point. -/
theorem iblk2_apply (c : Dev nD) (t : Fin cfg0.N) (y : S1x8192.Idx) :
    (iblk m c 2 t : Vec F S1x8192 .i32) y = V m c main_v1 y := by
  unfold iblk
  rw [View.read_apply]
  show V m c main_v1 _ = V m c main_v1 y
  congr 1
  funext a
  apply Fin.ext
  match a with
  | ⟨0, _⟩ => show win0_2.index t 0 * 1 + 1 * (y 0).val = (y 0).val; rw [(idx2 t).1]; omega
  | ⟨1, _⟩ => show win0_2.index t 1 * 8192 + 1 * (y 1).val = (y 1).val; rw [(idx2 t).2]; omega

/-- The label column the region finds is the label vector recast as [8192, 1]. -/
theorem V_col (c : Dev nD) :
    (V m c main_v0 : S8192x1.Idx → Elt F .i32)
      = shapeCast S8192x1 (m ((c : Thread nD τ).loc main_arg3)) shapeCasts_S8192_S8192x1 := by
  show StableHlo.after hostOps0 (fun b => m (c, b)) (Proc.devRef .tc main_v0) = _
  after_results
  rfl

/-- The label row the region finds is the label vector recast as [1, 8192]. -/
theorem V_row (c : Dev nD) :
    (V m c main_v1 : S1x8192.Idx → Elt F .i32)
      = shapeCast S1x8192 (m ((c : Thread nD τ).loc main_arg3)) shapeCasts_S8192_S1x8192 := by
  show StableHlo.after hostOps0 (fun b => m (c, b)) (Proc.devRef .tc main_v1) = _
  after_results
  rfl

/-- The label column at row r is label r. -/
theorem V_col_apply (c : Dev nD) (r : Fin 8192) :
    (V m c main_v0 : S8192x1.Idx → Elt F .i32) (ix2 r (0 : Fin 1)) = m ((c : Thread nD τ).loc main_arg3) (ix1 r) := by
  rw [V_col]
  exact shapeCast_a_a1_apply _ shapeCasts_S8192_S8192x1 r (0 : Fin 1)

/-- The label row at column r is label r. -/
theorem V_row_apply (c : Dev nD) (r : Fin 8192) :
    (V m c main_v1 : S1x8192.Idx → Elt F .i32) (ix2 (0 : Fin 1) r) = m ((c : Thread nD τ).loc main_arg3) (ix1 r) := by
  rw [V_row]
  exact shapeCast_a_1a_apply _ shapeCasts_S8192_S1x8192 (0 : Fin 1) r

end Cert.KernelIdeal.Blocks

end
-- ==== Proof.Tiles.lean ====
/-
  The tiles of a grid point, entry by entry, in terms of the whole arrays.

  At the point with coordinates (a, b) the row slab's entry (p, k) is the samples' entry (512a + p, k), and the column
  slab's entry (q, k) is the samples' entry (512b + q, k); so the distance tile at (p, q) is the scaled squared distance
  of rows 512a + p and 512b + q. Likewise the mask tile at (p, q) compares label 512a + p with label 512b + q.
  A one-bit word widened to 32 bits and read signed is the same number as the bit read unsigned.
-/
import proofs.«157157_j61418032333461_2_alg».proof.Proof.Pieces
import proofs.«157157_j61418032333461_2_alg».proof.Proof.Payload
import proofs.«157157_j61418032333461_2_alg».proof.Proof.LibSliceLayout
import proofs.«157157_j61418032333461_2_alg».proof.Proof.Blocks
import proofs.«157157_j61418032333461_2_alg».proof.Proof.Spec

noncomputable section

open scoped BigOperators

namespace Cert.KernelIdeal.Tiles

open Idealize.ShloMosaic Idealize.ShloMosaic.TcCoe Idealize.ShloMosaic.ValueIdx
open Cert.KernelIdeal Cert.KernelIdeal.Gen Cert.KernelIdeal.Pieces Cert.KernelIdeal.Blocks

/-- The row slab's entry (p, k) is the samples' entry (512a + p, k). -/
theorem slabA_apply (i : grid0.Coords) (X : Vec Ideal S8192x256 .f32) (p : Fin 512) (k : Fin 256) :
    slabA i X (ix2 p k) = X (ix2 (Cert.Spec.row (i 0) p) k) := by
  unfold slabA
  refine ld_unit_apply X _ _ _ (ix2 p k) (ix2 (Cert.Spec.row (i 0) p) k) fun a => ?_
  match a with
  | ⟨0, _⟩ => show 512 * (i 0).val + p.val = k0_off1 i 0 + p.val; rw [off1_0]
  | ⟨1, _⟩ => show k.val = k0_off1 i 1 + k.val; rw [off1_1]; omega

/-- The column slab's entry (q, k) is the samples' entry (512b + q, k). -/
theorem slabB_apply (i : grid0.Coords) (X : Vec Ideal S8192x256 .f32) (q : Fin 512) (k : Fin 256) :
    slabB i X (ix2 q k) = X (ix2 (Cert.Spec.row (i 1) q) k) := by
  unfold slabB
  refine ld_unit_apply X _ _ _ (ix2 q k) (ix2 (Cert.Spec.row (i 1) q) k) fun a => ?_
  match a with
  | ⟨0, _⟩ => show 512 * (i 1).val + q.val = k0_off2 i 0 + q.val; rw [off2_0]
  | ⟨1, _⟩ => show k.val = k0_off2 i 1 + k.val; rw [off2_1]; omega

/-- The label column's slab at (p, 0) is the column's entry (512a + p, 0). -/
theorem labA_apply (i : grid0.Coords) (Y : Vec Ideal S8192x1 .i32) (p : Fin 512) :
    labA i Y (ix2 p (0 : Fin 1)) = Y (ix2 (Cert.Spec.row (i 0) p) (0 : Fin 1)) := by
  unfold labA
  refine ld_unit_apply Y _ _ _ (ix2 p (0 : Fin 1)) (ix2 (Cert.Spec.row (i 0) p) (0 : Fin 1)) fun a => ?_
  match a with
  | ⟨0, _⟩ => show 512 * (i 0).val + p.val = k0_off3 i 0 + p.val; rw [off3_0]
  | ⟨1, _⟩ => show 0 = k0_off3 i 1 + 0; rw [off3_1]

/-- The label row's slab at (0, q) is the row's entry (0, 512b + q). -/
theorem labB_apply (i : grid0.Coords) (Z : Vec Ideal S1x8192 .i32) (q : Fin 512) :
    labB i Z (ix2 (0 : Fin 1) q) = Z (ix2 (0 : Fin 1) (Cert.Spec.row (i 1) q)) := by
  unfold labB
  refine ld_unit_apply Z _ _ _ (ix2 (0 : Fin 1) q) (ix2 (0 : Fin 1) (Cert.Spec.row (i 1) q)) fun a => ?_
  match a with
  | ⟨0, _⟩ => show 0 = k0_off4 i 0 + 0; rw [off4_0]
  | ⟨1, _⟩ => show 512 * (i 1).val + q.val = k0_off4 i 1 + q.val; rw [off4_1]

/-- The distance tile at (p, q) is the scaled squared distance of rows 512a + p and 512b + q. -/
theorem distTile_apply (i : grid0.Coords) (X : Vec Ideal S8192x256 .f32) (p q : Fin 512) :
    distTile i X (ix2 p q)
      = Cert.Spec.dist (Ideal.ofBits .f32 0x40000000#32) (Ideal.ofBits .f32 0x3B800000#32) X
          (Cert.Spec.row (i 0) p) (Cert.Spec.row (i 1) q) := by
  unfold distTile
  rw [Payload.dist_apply]
  simp only [slabA_apply, slabB_apply]
  rfl

/-- A one-bit word widened to 32 bits and read signed is the bit read unsigned. -/
theorem bit_signed_unsigned : ∀ b : BitVec 1, (b.setWidth 32).toInt = (b.toNat : Int) := by decide

/-- The mask tile at (p, q): labels 512a + p and 512b + q compared, the one bit read as a number. -/
theorem maskTile_apply (i : grid0.Coords) (Y : Vec Ideal S8192x1 .i32) (Z : Vec Ideal S1x8192 .i32) (p q : Fin 512) :
    maskTile i Y Z (ix2 p q)
      = FloatOps.uitofp (F := Ideal) .f32
          (IntOp.cmpi .eq (Y (ix2 (Cert.Spec.row (i 0) p) (0 : Fin 1))) (Z (ix2 (0 : Fin 1) (Cert.Spec.row (i 1) q)))) := by
  unfold maskTile
  rw [Payload.mask_apply, labA_apply, labB_apply]
  show (((_ : BitVec 32).toInt : ℝ) : EReal) = (((_ : BitVec 1).toNat : ℝ) : EReal)
  rw [bit_signed_unsigned]
  norm_cast

end Cert.KernelIdeal.Tiles

end
-- ==== Proof.KernelValue.lean ====
/-
  The accumulators' final contents as sums over all pairs of rows.

  One step of an accumulator adds the point's tile sum to the one entry it holds. With the point's blocks read as the
  whole arrays and its slabs as rows 512a + p and 512b + q, the tile sum at the point with coordinates (a, b) is the sum
  over p and q of the pair term at those rows. After the last point each accumulator therefore holds zero plus the sum
  over the 256 points of their tile sums, and the points are the 16 x 16 tiles of the pairs: the sum over all pairs.
-/
import proofs.«157157_j61418032333461_2_alg».proof.Proof.Accumulate
import proofs.«157157_j61418032333461_2_alg».proof.Proof.Tiles

noncomputable section

open scoped BigOperators

namespace Cert.KernelIdeal.KernelValue

open Idealize.ShloMosaic Idealize.ShloMosaic.TcCoe Idealize.SL.Sem Idealize.ShloMosaic.ValueIdx
open Cert.KernelIdeal Cert.KernelIdeal.Gen Cert.KernelIdeal.Pieces Cert.KernelIdeal.Blocks Cert.KernelIdeal.Accumulate

variable (m : (ℓ : Loc nD τ sig) → Buf (Elt Ideal) ℓ)

/-- The mask of a pair of rows: their labels compared, the one bit read as a number. -/
def same (l : Vec Ideal S8192 .i32) (i j : Fin 8192) : EReal :=
  FloatOps.uitofp (F := Ideal) .f32 (IntOp.cmpi .eq (l (ix1 i)) (l (ix1 j)))

/-- The scaled squared distance of a pair of rows, with the kernel's two words. -/
def dist (X : Vec Ideal S8192x256 .f32) (i j : Fin 8192) : EReal :=
  Cert.Spec.dist (Ideal.ofBits .f32 0x40000000#32) (Ideal.ofBits .f32 0x3B800000#32) X i j

/-- The equal-label term of a pair. -/
def pairSame (X : Vec Ideal S8192x256 .f32) (l : Vec Ideal S8192 .i32) (i j : Fin 8192) : EReal :=
  same l i j * dist X i j

/-- The different-label term of a pair. -/
def pairDiff (X : Vec Ideal S8192x256 .f32) (l : Vec Ideal S8192 .i32) (i j : Fin 8192) : EReal :=
  max (Ideal.ofBits .f32 0x00000000#32)
    ((Ideal.ofBits .f32 0x3F800000#32 - same l i j) * (Ideal.ofBits .f32 0x3F800000#32 - dist X i j))

/-- The sum of a pair term over the tile (a, b). -/
def tileSum (f : Fin 8192 → Fin 8192 → EReal) (a b : Fin 16) : EReal :=
  ∑ p : Fin 512, ∑ q : Fin 512, f (Cert.Spec.row a p) (Cert.Spec.row b q)

/-- The samples and the labels as launched. -/
abbrev X0 (c : Dev nD) : Vec Ideal S8192x256 .f32 := m ((c : Thread nD τ).loc main_arg2)
abbrev L0 (c : Dev nD) : Vec Ideal S8192 .i32 := m ((c : Thread nD τ).loc main_arg3)

/-- Window 0's block is the samples as launched. -/
theorem iblk0_eq (c : Dev nD) (t : Fin cfg0.N) : (iblk m c 0 t : Vec Ideal S8192x256 .f32) = X0 m c :=
  funext fun y => (iblk0_apply m c t y).trans (congrFun (V_main_arg2 m c) y)

/-- The distance tile of point t at (p, q). -/
theorem dist_at (c : Dev nD) (t : Fin cfg0.N) (p q : Fin 512) :
    distTile (grid0.coords t) (iblk m c 0 t) (ix2 p q)
      = dist (X0 m c) (Cert.Spec.row (grid0.coords t 0) p) (Cert.Spec.row (grid0.coords t 1) q) := by
  rw [iblk0_eq m c t]
  exact Tiles.distTile_apply (grid0.coords t) (X0 m c) p q

/-- The mask tile of point t at (p, q). -/
theorem mask_at (c : Dev nD) (t : Fin cfg0.N) (p q : Fin 512) :
    maskTile (grid0.coords t) (iblk m c 1 t) (iblk m c 2 t) (ix2 p q)
      = same (L0 m c) (Cert.Spec.row (grid0.coords t 0) p) (Cert.Spec.row (grid0.coords t 1) q) := by
  rw [Tiles.maskTile_apply (grid0.coords t) (iblk m c 1 t) (iblk m c 2 t) p q]
  unfold same
  rw [iblk1_apply m c t, iblk2_apply m c t, V_col_apply m c, V_row_apply m c]

/-- One step of the first accumulator adds the point's equal-label tile sum to its one entry. -/
theorem stepS_apply (c : Dev nD) (t : Fin cfg0.N) (prev : Vec Ideal S1x1 .f32) :
    stepS m c t prev (ix2 (0 : Fin 1) (0 : Fin 1))
      = prev (ix2 (0 : Fin 1) (0 : Fin 1)) + tileSum (pairSame (X0 m c) (L0 m c)) (grid0.coords t 0) (grid0.coords t 1) := by
  unfold stepS
  rw [Payload.accSame_apply]
  refine congrArg (prev (ix2 (0 : Fin 1) (0 : Fin 1)) + ·) ?_
  unfold tileSum pairSame
  refine Finset.sum_congr rfl fun p _ => Finset.sum_congr rfl fun q _ => ?_
  rw [mask_at m c t p q, dist_at m c t p q]

/-- One step of the second accumulator adds the point's different-label tile sum to its one entry. -/
theorem stepD_apply (c : Dev nD) (t : Fin cfg0.N) (prev : Vec Ideal S1x1 .f32) :
    stepD m c t prev (ix2 (0 : Fin 1) (0 : Fin 1))
      = prev (ix2 (0 : Fin 1) (0 : Fin 1)) + tileSum (pairDiff (X0 m c) (L0 m c)) (grid0.coords t 0) (grid0.coords t 1) := by
  unfold stepD
  rw [Payload.accDiff_apply]
  refine congrArg (prev (ix2 (0 : Fin 1) (0 : Fin 1)) + ·) ?_
  unfold tileSum pairDiff
  refine Finset.sum_congr rfl fun p _ => Finset.sum_congr rfl fun q _ => ?_
  rw [mask_at m c t p q, dist_at m c t p q]

/-- The zero blocks the first point stores hold the zero word. -/
theorem zeroS_apply : k0_pay3 (F := Ideal) (ix2 (0 : Fin 1) (0 : Fin 1)) = Ideal.ofBits .f32 0x00000000#32 := by
  unfold k0_pay3; rw [shapeCast_self]; rfl
theorem zeroD_apply : k0_pay4 (F := Ideal) (ix2 (0 : Fin 1) (0 : Fin 1)) = Ideal.ofBits .f32 0x00000000#32 := by
  unfold k0_pay4; rw [shapeCast_self]; rfl

/-- Point s's tile sum of a pair term, for any natural s (zero past the grid, where it is never used). -/
def pointSum (f : Fin 8192 → Fin 8192 → EReal) (s : ℕ) : EReal :=
  if hs : s < cfg0.N then tileSum f (grid0.coords ⟨s, hs⟩ 0) (grid0.coords ⟨s, hs⟩ 1) else 0

/-- The first accumulator's entry after point n: the zero word plus the tile sums of points 0 .. n. -/
theorem chainS_apply (c : Dev nD) : ∀ (n : ℕ) (h : n < cfg0.N),
    chainS m c n h (ix2 (0 : Fin 1) (0 : Fin 1))
      = Ideal.ofBits .f32 0x00000000#32 + ∑ s ∈ Finset.range (n + 1), pointSum (pairSame (X0 m c) (L0 m c)) s
  | 0, h => by
    show stepS m c ⟨0, h⟩ (k0_pay3 (F := Ideal)) (ix2 (0 : Fin 1) (0 : Fin 1)) = _
    rw [stepS_apply, zeroS_apply, Finset.sum_range_one]
    unfold pointSum
    rw [dif_pos h]
  | n + 1, h => by
    show stepS m c ⟨n + 1, h⟩ (chainS m c n (Nat.lt_of_succ_lt h)) (ix2 (0 : Fin 1) (0 : Fin 1)) = _
    rw [stepS_apply, chainS_apply c n (Nat.lt_of_succ_lt h), Finset.sum_range_succ _ (n + 1), add_assoc]
    refine congrArg (_ + ·) (congrArg (_ + ·) ?_)
    unfold pointSum
    rw [dif_pos h]

/-- The second accumulator's entry after point n. -/
theorem chainD_apply (c : Dev nD) : ∀ (n : ℕ) (h : n < cfg0.N),
    chainD m c n h (ix2 (0 : Fin 1) (0 : Fin 1))
      = Ideal.ofBits .f32 0x00000000#32 + ∑ s ∈ Finset.range (n + 1), pointSum (pairDiff (X0 m c) (L0 m c)) s
  | 0, h => by
    show stepD m c ⟨0, h⟩ (k0_pay4 (F := Ideal)) (ix2 (0 : Fin 1) (0 : Fin 1)) = _
    rw [stepD_apply, zeroD_apply, Finset.sum_range_one]
    unfold pointSum
    rw [dif_pos h]
  | n + 1, h => by
    show stepD m c ⟨n + 1, h⟩ (chainD m c n (Nat.lt_of_succ_lt h)) (ix2 (0 : Fin 1) (0 : Fin 1)) = _
    rw [stepD_apply, chainD_apply c n (Nat.lt_of_succ_lt h), Finset.sum_range_succ _ (n + 1), add_assoc]
    refine congrArg (_ + ·) (congrArg (_ + ·) ?_)
    unfold pointSum
    rw [dif_pos h]

/-- Point 16a + b is the tile (a, b). -/
theorem pointSum_tile (f : Fin 8192 → Fin 8192 → EReal) (a b : Fin 16) :
    pointSum f (16 * a.val + b.val) = tileSum f a b := by
  have hs : 16 * a.val + b.val < cfg0.N := by
    rw [show cfg0.N = 256 from N_0]; have := a.isLt; have := b.isLt; omega
  unfold pointSum
  rw [dif_pos hs]
  have e0 : grid0.coords ⟨16 * a.val + b.val, hs⟩ 0 = a := Fin.ext (by
    rw [coords0]; show (16 * a.val + b.val) / 16 = a.val; have := b.isLt; omega)
  have e1 : grid0.coords ⟨16 * a.val + b.val, hs⟩ 1 = b := Fin.ext (by
    rw [coords1]; show (16 * a.val + b.val) % 16 = b.val; have := b.isLt; omega)
  rw [e0, e1]

/-- The tile sums of all 256 points add up to the sum over all pairs of rows. -/
theorem sum_points (f : Fin 8192 → Fin 8192 → EReal) :
    ∑ s ∈ Finset.range 256, pointSum f s = Cert.Spec.total f := by
  rw [Finset.sum_range, Cert.Lib.TilesOfEq.sum_tiles_of_eq 16 16 256 (by norm_num) (fun i : Fin 256 => pointSum f i.val),
    Cert.Spec.total_tiles f]
  refine Finset.sum_congr rfl fun a _ => Finset.sum_congr rfl fun b _ => ?_
  exact pointSum_tile f a b

end Cert.KernelIdeal.KernelValue

end
-- ==== Proof.RefRead.lean ====
/-
  The reference's result, read one operation at a time at the extended reals, is the loss formula.

  Every stage is read at an index from its operands at an index. The row sums of squares, broadcast down and across,
  give sq i + sq j at (i, j); the contraction at (i, j) is the inner product of rows i and j; the quotient by the word
  for 256 is the product with the word for 1/256; the mask is the one-bit comparison of labels i and j read as a number.
  The two full sums run over every index (i, j), which is the double sum over rows. A sum's initial value is the zero
  word, which denotes zero.
-/
import proofs.«157157_j61418032333461_2_alg».proof.Defs
import proofs.«157157_j61418032333461_2_alg».proof.Proof.Gen.ReferenceIdeal.Run
import proofs.«157157_j61418032333461_2_alg».proof.Proof.Gen.ReferenceIdeal.Read
import proofs.«157157_j61418032333461_2_alg».proof.Proof.Spec
import proofs.«157157_j61418032333461_2_alg».proof.Proof.Consts
import proofs.«157157_j61418032333461_2_alg».proof.Proof.KernelValue
import Idealize.ShloMosaic.Lib.ValueIdx
import Idealize.ShloMosaic.PureOps.Ideal.Laws

noncomputable section

open scoped BigOperators

namespace Cert.RefRead

open Idealize.ShloMosaic Idealize.ShloMosaic.TcCoe Idealize.SL.Sem Idealize.ShloMosaic.ValueIdx
open Cert.ReferenceIdeal Cert.ReferenceIdeal.Read
open Cert.KernelIdeal.KernelValue (same dist pairSame pairDiff)

/-- The samples and the labels as the reference takes them. -/
abbrev XT := (⟨S8192x256, .f32⟩ : BufTy).Contents (Elt Ideal)
abbrev LT := (⟨S8192, .i32⟩ : BufTy).Contents (Elt Ideal)

/-! The stages' index functions at indices given by coordinates. -/
theorem i_v1 (r : Fin 8192) (k : Fin 256) : idx_main_v1 (ix1 r) k = ix2 r k :=
  funext fun a => Fin.ext (by match a with | ⟨0, _⟩ => rfl | ⟨1, _⟩ => rfl)
theorem i_l2 (i j : Fin 8192) (k : Fin 256) : lidx_main_v2 (ix2 i j) k = ix2 i k :=
  funext fun a => Fin.ext (by match a with | ⟨0, _⟩ => rfl | ⟨1, _⟩ => rfl)
theorem i_r2 (i j : Fin 8192) (k : Fin 256) : ridx_main_v2 (ix2 i j) k = ix2 j k :=
  funext fun a => Fin.ext (by match a with | ⟨0, _⟩ => rfl | ⟨1, _⟩ => rfl)
theorem i_35 (i j : Fin 8192) : idx_main_v3 (idx_main_v5 (ix2 i j)) = ix1 i :=
  funext fun a => Fin.ext (by match a with | ⟨0, _⟩ => rfl)
theorem i_46 (i j : Fin 8192) : idx_main_v4 (idx_main_v6 (ix2 i j)) = ix1 j :=
  funext fun a => Fin.ext (by match a with | ⟨0, _⟩ => rfl)
theorem i_1315 (i j : Fin 8192) : idx_main_v13 (idx_main_v15 (ix2 i j)) = ix1 i :=
  funext fun a => Fin.ext (by match a with | ⟨0, _⟩ => rfl)
theorem i_1416 (i j : Fin 8192) : idx_main_v14 (idx_main_v16 (ix2 i j)) = ix1 j :=
  funext fun a => Fin.ext (by match a with | ⟨0, _⟩ => rfl)

/-- Row r's sum of squares: the zero initial value contributes nothing. -/
theorem sq_at (X : XT) (r : Fin 8192) : val_main_v1 (F := Ideal) X (ix1 r) = Cert.Spec.sq X r := by
  rw [val_main_v1_apply]
  simp only [i_v1, val_main_v0_apply, val_main_cst_apply, Ideal.ofBits_def, Ideal.mulf_def, Ideal.ofBits_zero_f32, zero_add]
  rfl

/-- The contraction at (i, j): the inner product of rows i and j. -/
theorem gram_at (X : XT) (i j : Fin 8192) : val_main_v2 (F := Ideal) X (ix2 i j) = Cert.Spec.gram X i j := by
  rw [val_main_v2_apply]
  simp only [i_l2, i_r2]
  rfl

/-- The scaled distance at (i, j): the quotient by 256 is the product with 1/256. -/
theorem dist_at (X : XT) (i j : Fin 8192) : val_main_v12 (F := Ideal) X (ix2 i j) = dist X i j := by
  rw [val_main_v12_apply, val_main_v10_apply, val_main_v7_apply, val_main_v5_apply, val_main_v3_apply, val_main_v6_apply,
    val_main_v4_apply, val_main_v9_apply, val_main_v8_apply, val_main_cst_0_apply, val_main_v11_apply, val_main_cst_1_apply,
    i_35, i_46, sq_at, sq_at, gram_at]
  simp only [Ideal.hostDivf_def, Ideal.addf_def, Ideal.subf_def, Ideal.mulf_def, Ideal.ofBits_def]
  rw [Cert.Consts.div_256]
  rfl

/-- The mask at (i, j). -/
theorem same_at (l : LT) (i j : Fin 8192) : val_main_v18 (F := Ideal) l (ix2 i j) = same l i j := by
  rw [val_main_v18_apply, val_main_v17_apply, val_main_v15_apply, val_main_v13_apply, val_main_v16_apply, val_main_v14_apply,
    i_1315, i_1416]
  rfl

/-- The equal-label term at (i, j). -/
theorem pairSame_at (X : XT) (l : LT) (i j : Fin 8192) : val_main_v28 (F := Ideal) X l (ix2 i j) = pairSame X l i j := by
  rw [val_main_v28_apply, same_at, dist_at]
  rfl

/-- The different-label term at (i, j). -/
theorem pairDiff_at (X : XT) (l : LT) (i j : Fin 8192) : val_main_v25 (F := Ideal) X l (ix2 i j) = pairDiff X l i j := by
  rw [val_main_v25_apply, val_main_v24_apply, val_main_cst_4_apply, val_main_v23_apply, val_main_v20_apply, val_main_v19_apply,
    val_main_cst_2_apply, val_main_v22_apply, val_main_v21_apply, val_main_cst_3_apply, same_at, dist_at]
  rfl

/-- The loss as one value: ten times each sum over all pairs divided by the number of pairs, added. Each sum starts
    from the zero word. -/
def lossOf (X : XT) (l : LT) : EReal :=
  Ideal.ofBits .f32 0x41200000#32
      * Ideal.div (Ideal.ofBits .f32 0x00000000#32 + Cert.Spec.total (pairSame X l)) (Ideal.ofBits .f32 0x4C800000#32)
    + Ideal.ofBits .f32 0x41200000#32
      * Ideal.div (Ideal.ofBits .f32 0x00000000#32 + Cert.Spec.total (pairDiff X l)) (Ideal.ofBits .f32 0x4C800000#32)

/-- The reference's result is the loss. -/
theorem ref_eq (X : XT) (l : LT) (i : S_.Idx) : val_main_v33 (F := Ideal) X l i = lossOf X l := by
  rw [val_main_v33_apply, val_main_v31_apply, val_main_cst_9_apply, val_main_v30_apply, val_main_v29_apply, val_main_cst_7_apply,
    val_main_cst_8_apply, val_main_v32_apply, val_main_cst_10_apply, val_main_v27_apply, val_main_v26_apply, val_main_cst_5_apply,
    val_main_cst_6_apply, sum_idx2, sum_idx2]
  simp only [pairSame_at, pairDiff_at]
  rfl

end Cert.RefRead

end
-- ==== Proof.Bridge.lean ====
/-
  The kernel's result is the loss formula of the launched arrays.

  The host lines after the region read each 1 x 1 result array at its one entry. That entry is the accumulator after the
  last point: the zero word plus the tile sums of all 256 points, which add up to the sum over all pairs of rows.
-/
import proofs.«157157_j61418032333461_2_alg».proof.Proof.Final
import proofs.«157157_j61418032333461_2_alg».proof.Proof.KernelValue
import proofs.«157157_j61418032333461_2_alg».proof.Proof.RefRead

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen Cert.KernelIdeal.Accumulate Cert.KernelIdeal.KernelValue Cert.KernelIdeal.Final

variable (m : (ℓ : Loc nD τ sig) → Buf (Elt Ideal) ℓ)

/-- A 1 x 1 array read as a scalar is its one entry. -/
theorem scalar_of_1x1 (a : Vec Ideal S1x1 .f32) (i : S_.Idx) :
    shapeCast S_ a shapeCasts_S1x1_S_ i = a (ix2 (0 : Fin 1) (0 : Fin 1)) := by
  refine shapeCast_apply a shapeCasts_S1x1_S_ i (ix2 (0 : Fin 1) (0 : Fin 1)) ?_
  have h1 : (S1x1.rowMajor (ix2 (0 : Fin 1) (0 : Fin 1))).val < 1 := (S1x1.rowMajor _).isLt
  have h2 : (S_.rowMajor i).val < 1 := (S_.rowMajor i).isLt
  omega

/-- The first accumulator's final entry: the zero word plus the sum of the equal-label term over all pairs. -/
theorem res3_apply (c : Dev nD) :
    res3 m c (ix2 (0 : Fin 1) (0 : Fin 1))
      = Ideal.ofBits .f32 0x00000000#32 + Cert.Spec.total (pairSame (X0 m c) (L0 m c)) := by
  show chainS m c 255 lt_last (ix2 (0 : Fin 1) (0 : Fin 1)) = _
  rw [chainS_apply m c 255 lt_last, show (255 : ℕ) + 1 = 256 from rfl, sum_points]

/-- The second accumulator's final entry: the zero word plus the sum of the different-label term over all pairs. -/
theorem res4_apply (c : Dev nD) :
    res4 m c (ix2 (0 : Fin 1) (0 : Fin 1))
      = Ideal.ofBits .f32 0x00000000#32 + Cert.Spec.total (pairDiff (X0 m c) (L0 m c)) := by
  show chainD m c 255 lt_last (ix2 (0 : Fin 1) (0 : Fin 1)) = _
  rw [chainD_apply m c 255 lt_last, show (255 : ℕ) + 1 = 256 from rfl, sum_points]

/-- The kernel's result is the loss of the launched samples and labels. -/
theorem kernel_eq (c : Dev nD) (i : S_.Idx) :
    tailOf (res3 m c) (res4 m c) i = Cert.RefRead.lossOf (X0 m c) (L0 m c) := by
  show Ideal.ofBits .f32 0x41200000#32
        * Ideal.div (shapeCast S_ (res3 m c) shapeCasts_S1x1_S_ i) (Ideal.ofBits .f32 0x4C800000#32)
      + Ideal.ofBits .f32 0x41200000#32
        * Ideal.div (shapeCast S_ (res4 m c) shapeCasts_S1x1_S_ i) (Ideal.ofBits .f32 0x4C800000#32) = _
  rw [scalar_of_1x1, scalar_of_1x1, res3_apply, res4_apply]
  rfl

end Cert.KernelIdeal.Bridge

end
-- ==== Proof.lean ====
/-
  The pairwise label loss: a kernel that accumulates it tile by tile over a 16 x 16 grid, against the whole-array formula.

  For 8192 samples of 256 entries and integer labels, the loss is ten times the mean over all pairs (i, j) of
  same * dist, plus ten times the mean of max 0 ((1 - same) * (1 - dist)), where dist is the squared distance of rows i
  and j divided by 256, written through the row sums of squares and the inner products, and same is 1 when the two
  labels agree and 0 otherwise.

  The kernel visits the 256 tiles of 512 x 512 pairs in order, adds each tile's two sums into two one-entry
  accumulators that start from zero at the first point, and copies them out at the last point; the lines after it
  divide by the number of pairs, scale and add. The reference forms the whole 8192 x 8192 arrays and sums them.
  Over the extended reals the two agree: a change of float format is the identity, a matrix product into zeros is the
  sum of products, addition is commutative and associative so the pairs may be summed tile by tile, the zero word
  denotes zero, and dividing by 256 is multiplying by 1/256 since both are exact powers of two. No finiteness of the
  inputs is used.

  The three frames: the two kernel programs' are their generated frame certificates; the reference has no kernel and
  its frame is its run with the result dropped. The idealization rewrote nothing, so it is preserved trivially.
-/
import proofs.«157157_j61418032333461_2_alg».proof.Defs
import proofs.«157157_j61418032333461_2_alg».proof.Proof.Gen.Kernel
import proofs.«157157_j61418032333461_2_alg».proof.Proof.Gen.Kernel.Skeleton
import proofs.«157157_j61418032333461_2_alg».proof.Proof.Gen.Kernel.Launch
import proofs.«157157_j61418032333461_2_alg».proof.Proof.Gen.Kernel.Points
import proofs.«157157_j61418032333461_2_alg».proof.Proof.Gen.Kernel.Frame
import proofs.«157157_j61418032333461_2_alg».proof.Proof.Gen.KernelIdeal
import proofs.«157157_j61418032333461_2_alg».proof.Proof.Gen.KernelIdeal.Skeleton
import proofs.«157157_j61418032333461_2_alg».proof.Proof.Gen.KernelIdeal.Launch
import proofs.«157157_j61418032333461_2_alg».proof.Proof.Gen.KernelIdeal.Points
import proofs.«157157_j61418032333461_2_alg».proof.Proof.Gen.KernelIdeal.Frame
import proofs.«157157_j61418032333461_2_alg».proof.Proof.Gen.ReferenceIdeal
import proofs.«157157_j61418032333461_2_alg».proof.Proof.Gen.ReferenceIdeal.Run
import proofs.«157157_j61418032333461_2_alg».proof.Proof.Gen.ReferenceIdeal.Read
import proofs.«157157_j61418032333461_2_alg».proof.Proof.Gen.Pre_finite_inputs
import proofs.«157157_j61418032333461_2_alg».proof.Proof.Final
import proofs.«157157_j61418032333461_2_alg».proof.Proof.RefRead
import proofs.«157157_j61418032333461_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run and end with the same result: the kernel's is the tail of
    its two accumulators' final contents, the reference's its composed term, and both are the loss of the samples and
    labels. -/
theorem algebraic : Cert.algebraic_KernelIdeal_ReferenceIdeal := by
  intro m ρ m' ρ' _ hagree
  refine ⟨fun c => Cert.KernelIdeal.Final.tailOf (Cert.KernelIdeal.Final.res3 m c) (Cert.KernelIdeal.Final.res4 m c),
    Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  funext i
  rw [Cert.RefRead.ref_eq]
  show Cert.RefRead.lossOf _ _
    = Cert.KernelIdeal.Final.tailOf (Cert.KernelIdeal.Final.res3 m c) (Cert.KernelIdeal.Final.res4 m c) i
  rw [Cert.KernelIdeal.Bridge.kernel_eq m c i, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
